-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64 .f32) (main_arg6 : FVec F S1x64 .f32) (main_arg7 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S1x64 .f32 := Host.absf main_arg6
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x3200000 32) (main_arg2 : FVec F S64x128 .f32) (main_arg3 : FVec F S64 .f32) (main_arg4 : FVec F S64x64 .f32) (main_arg5 : FVec F S64 .f32) (main_arg6 : FVec F S1x64 .f32) (main_arg7 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x128 : Shape := ⟨2, ![100000, 128]⟩
abbrev S2x3200000 : Shape := ⟨2, ![2, 3200000]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S128x64 : Shape := ⟨2, ![128, 64]⟩
abbrev S100000x64 : Shape := ⟨2, ![100000, 64]⟩
abbrev S10000x128 : Shape := ⟨2, ![10000, 128]⟩
abbrev S10000x64 : Shape := ⟨2, ![10000, 64]⟩
abbrev S3300000x64 : Shape := ⟨2, ![3300000, 64]⟩
abbrev S64x1 : Shape := ⟨2, ![64, 1]⟩
abbrev S1x1 : Shape := ⟨2, ![1, 1]⟩
abbrev S100000x1 : Shape := ⟨2, ![100000, 1]⟩
abbrev S10000x1 : Shape := ⟨2, ![10000, 1]⟩

abbrev nBuf : Space → Nat
  | .hbm => 99
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S64x128, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x64, .f32⟩
  | .hbm, ⟨7, _⟩ => ⟨S1, .f32⟩
  | .hbm, ⟨8, _⟩ => ⟨S100000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S3300000, .i32⟩
  | .hbm, ⟨34, _⟩ => ⟨S3300000, .i1⟩
  | .hbm, ⟨35, _⟩ => ⟨S_, .i32⟩
  | .hbm, ⟨36, _⟩ => ⟨S3300000, .i32⟩
  | .hbm, ⟨37, _⟩ => ⟨S3300000, .i32⟩
  | .hbm, ⟨38, _⟩ => ⟨S3300000, .i32⟩
  | .hbm, ⟨39, _⟩ => ⟨S3300000x1, .i32⟩
  | .hbm, ⟨40, _⟩ => ⟨S3300000, .f32⟩
  | .hbm, ⟨41, _⟩ => ⟨S_, .i32⟩
  | .hbm, ⟨42, _⟩ => ⟨S3300000, .i32⟩
  | .hbm, ⟨43, _⟩ => ⟨S3300000, .i1⟩
  | .hbm, ⟨44, _⟩ => ⟨S_, .i32⟩
  | .hbm, ⟨45, _⟩ => ⟨S3300000, .i32⟩
  | .hbm, ⟨46, _⟩ => ⟨S3300000, .i32⟩
  | .hbm, ⟨47, _⟩ => ⟨S3300000, .i32⟩
  | .hbm, ⟨48, _⟩ => ⟨S3300000x1, .i32⟩
  | .hbm, ⟨49, _⟩ => ⟨S3300000, .f32⟩
  | .hbm, ⟨50, _⟩ => ⟨S3300000, .f32⟩
  | .hbm, ⟨51, _⟩ => ⟨S128x64, .f32⟩
  | .hbm, ⟨52, _⟩ => ⟨S100000x64, .f32⟩
  | .hbm, ⟨53, _⟩ => ⟨S_, .i32⟩
  | .hbm, ⟨54, _⟩ => ⟨S3300000, .i32⟩
  | .hbm, ⟨55, _⟩ => ⟨S3300000, .i1⟩
  | .hbm, ⟨56, _⟩ => ⟨S_, .i32⟩
  | .hbm, ⟨57, _⟩ => ⟨S3300000, .i32⟩
  | .hbm, ⟨58, _⟩ => ⟨S3300000, .i32⟩
  | .hbm, ⟨59, _⟩ => ⟨S3300000, .i32⟩
  | .hbm, ⟨60, _⟩ => ⟨S3300000x1, .i32⟩
  | .hbm, ⟨61, _⟩ => ⟨S3300000x64, .f32⟩
  | .hbm, ⟨62, _⟩ => ⟨S3300000x1, .f32⟩
  | .hbm, ⟨63, _⟩ => ⟨S3300000x64, .f32⟩
  | .hbm, ⟨64, _⟩ => ⟨S3300000x64, .f32⟩
  | .hbm, ⟨65, _⟩ => ⟨S_, .f32⟩
  | .hbm, ⟨66, _⟩ => ⟨S100000x64, .f32⟩
  | .hbm, ⟨67, _⟩ => ⟨S3300000x1, .i32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S100000x64, .f32⟩
  | .hbm, ⟨72, _⟩ => ⟨S_, .f32⟩
  | .hbm, ⟨73, _⟩ => ⟨S100000x64, .f32⟩
  | .hbm, ⟨74, _⟩ => ⟨S100000x64, .f32⟩
  | .hbm, ⟨75, _⟩ => ⟨S64x64, .f32⟩
  | .hbm, ⟨76, _⟩ => ⟨S100000x64, .f32⟩
  | .hbm, ⟨77, _⟩ => ⟨S_, .i32⟩
  | .hbm, ⟨78, _⟩ => ⟨S3300000, .i32⟩
  | .hbm, ⟨79, _⟩ => ⟨S3300000, .i1⟩
  | .hbm, ⟨80, _⟩ => ⟨S_, .i32⟩
  | .hbm, ⟨81, _⟩ => ⟨S3300000, .i32⟩
  | .hbm, ⟨82, _⟩ => ⟨S3300000, .i32⟩
  | .hbm, ⟨83, _⟩ => ⟨S3300000, .i32⟩
  | .hbm, ⟨84, _⟩ => ⟨S3300000x1, .i32⟩
  | .hbm, ⟨85, _⟩ => ⟨S3300000x64, .f32⟩
  | .hbm, ⟨86, _⟩ => ⟨S3300000x1, .f32⟩
  | .hbm, ⟨87, _⟩ => ⟨S3300000x64, .f32⟩
  | .hbm, ⟨88, _⟩ => ⟨S3300000x64, .f32⟩
  | .hbm, ⟨89, _⟩ => ⟨S_, .f32⟩
  | .hbm, ⟨90, _⟩ => ⟨S100000x64, .f32⟩
  | .hbm, ⟨91, _⟩ => ⟨S3300000x1, .i32⟩
  | .hbm, ⟨92, _⟩ => ⟨S100000x64, .f32⟩
  | .hbm, ⟨93, _⟩ => ⟨S1x64, .f32⟩
  | .hbm, ⟨94, _⟩ => ⟨S100000x64, .f32⟩
  | .hbm, ⟨95, _⟩ => ⟨S100000x64, .f32⟩
  | .hbm, ⟨96, _⟩ => ⟨S64x1, .f32⟩
  | .hbm, ⟨97, _⟩ => ⟨S1x1, .f32⟩
  | .hbm, ⟨98, _⟩ => ⟨S100000x1, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x1, .f32⟩
  | .local _ .vmem, ⟨13, _⟩ => ⟨S1x1, .f32⟩
  | .local _ .vmem, ⟨14, _⟩ => ⟨S10000x1, .f32⟩
  | .local _ .vmem, ⟨15, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_call1_cst : Ref sig .tc := ⟨.hbm, 72, rfl⟩
abbrev main_call1_v0 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_10 : Ref sig .tc := ⟨.hbm, 77, rfl⟩
abbrev main_v53 : Ref sig .tc := ⟨.hbm, 78, rfl⟩
abbrev main_v54 : Ref sig .tc := ⟨.hbm, 79, rfl⟩
abbrev main_c_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_12 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  transposes_S64x128_S128x64_1_0 : S64x128.Transposes [1, 0] S128x64
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S64x64_S64x64_1_0 : S64x64.Transposes [1, 0] S64x64
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  transposes_S1x64_S64x1_1_0 : S1x64.Transposes [1, 0] S64x1
  shapeCasts_S1_S1x1 : S1.ShapeCasts S1x1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x64_S10000x64_1_0_0_1_n_n_wf : DotDims.WF S10000x128 S128x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x64_S10000x64_1_0_0_1_n_n_wf : DotDims.WF S10000x64 S64x64 S10000x64 [1] [0] [0] [1] [] []
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x1.size a ≤ S64x1.size a
  hwx2_1 : ∀ i : grid2.Coords, EltTy.bits .f32 = 32 ∨ (Rect.block (s := S64x1) S64x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x1.size a ≤ S100000x1.size a
  hwx2_3 : ∀ i : grid2.Coords, EltTy.bits .f32 = 32 ∨ (Rect.block (s := S100000x1) S10000x1.size (cc2_transform_3 i) (hinb2_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v68) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v69) S64x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v70) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v71) S10000x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S128x64 : Shape := ⟨2, ![128, 64]⟩
abbrev S100000x64 : Shape := ⟨2, ![100000, 64]⟩
abbrev S3300000x64 : Shape := ⟨2, ![3300000, 64]⟩
abbrev S64x1 : Shape := ⟨2, ![64, 1]⟩
abbrev S100000x1 : Shape := ⟨2, ![100000, 1]⟩
abbrev S1x1 : Shape := ⟨2, ![1, 1]⟩

abbrev nBuf : Space → Nat
  | .hbm => 101
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S64x128, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x64, .f32⟩
  | .hbm, ⟨7, _⟩ => ⟨S1, .f32⟩
  | .hbm, ⟨8, _⟩ => ⟨S100000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S3300000, .i32⟩
  | .hbm, ⟨34, _⟩ => ⟨S3300000, .i1⟩
  | .hbm, ⟨35, _⟩ => ⟨S_, .i32⟩
  | .hbm, ⟨36, _⟩ => ⟨S3300000, .i32⟩
  | .hbm, ⟨37, _⟩ => ⟨S3300000, .i32⟩
  | .hbm, ⟨38, _⟩ => ⟨S3300000, .i32⟩
  | .hbm, ⟨39, _⟩ => ⟨S3300000x1, .i32⟩
  | .hbm, ⟨40, _⟩ => ⟨S3300000, .f32⟩
  | .hbm, ⟨41, _⟩ => ⟨S_, .i32⟩
  | .hbm, ⟨42, _⟩ => ⟨S3300000, .i32⟩
  | .hbm, ⟨43, _⟩ => ⟨S3300000, .i1⟩
  | .hbm, ⟨44, _⟩ => ⟨S_, .i32⟩
  | .hbm, ⟨45, _⟩ => ⟨S3300000, .i32⟩
  | .hbm, ⟨46, _⟩ => ⟨S3300000, .i32⟩
  | .hbm, ⟨47, _⟩ => ⟨S3300000, .i32⟩
  | .hbm, ⟨48, _⟩ => ⟨S3300000x1, .i32⟩
  | .hbm, ⟨49, _⟩ => ⟨S3300000, .f32⟩
  | .hbm, ⟨50, _⟩ => ⟨S3300000, .f32⟩
  | .hbm, ⟨51, _⟩ => ⟨S128x64, .f32⟩
  | .hbm, ⟨52, _⟩ => ⟨S100000x64, .f32⟩
  | .hbm, ⟨53, _⟩ => ⟨S_, .i32⟩
  | .hbm, ⟨54, _⟩ => ⟨S3300000, .i32⟩
  | .hbm, ⟨55, _⟩ => ⟨S3300000, .i1⟩
  | .hbm, ⟨56, _⟩ => ⟨S_, .i32⟩
  | .hbm, ⟨57, _⟩ => ⟨S3300000, .i32⟩
  | .hbm, ⟨58, _⟩ => ⟨S3300000, .i32⟩
  | .hbm, ⟨59, _⟩ => ⟨S3300000, .i32⟩
  | .hbm, ⟨60, _⟩ => ⟨S3300000x1, .i32⟩
  | .hbm, ⟨61, _⟩ => ⟨S3300000x64, .f32⟩
  | .hbm, ⟨62, _⟩ => ⟨S3300000x1, .f32⟩
  | .hbm, ⟨63, _⟩ => ⟨S3300000x64, .f32⟩
  | .hbm, ⟨64, _⟩ => ⟨S3300000x64, .f32⟩
  | .hbm, ⟨65, _⟩ => ⟨S_, .f32⟩
  | .hbm, ⟨66, _⟩ => ⟨S100000x64, .f32⟩
  | .hbm, ⟨67, _⟩ => ⟨S3300000x1, .i32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S100000x64, .f32⟩
  | .hbm, ⟨72, _⟩ => ⟨S_, .f32⟩
  | .hbm, ⟨73, _⟩ => ⟨S100000x64, .f32⟩
  | .hbm, ⟨74, _⟩ => ⟨S100000x64, .f32⟩
  | .hbm, ⟨75, _⟩ => ⟨S64x64, .f32⟩
  | .hbm, ⟨76, _⟩ => ⟨S100000x64, .f32⟩
  | .hbm, ⟨77, _⟩ => ⟨S_, .i32⟩
  | .hbm, ⟨78, _⟩ => ⟨S3300000, .i32⟩
  | .hbm, ⟨79, _⟩ => ⟨S3300000, .i1⟩
  | .hbm, ⟨80, _⟩ => ⟨S_, .i32⟩
  | .hbm, ⟨81, _⟩ => ⟨S3300000, .i32⟩
  | .hbm, ⟨82, _⟩ => ⟨S3300000, .i32⟩
  | .hbm, ⟨83, _⟩ => ⟨S3300000, .i32⟩
  | .hbm, ⟨84, _⟩ => ⟨S3300000x1, .i32⟩
  | .hbm, ⟨85, _⟩ => ⟨S3300000x64, .f32⟩
  | .hbm, ⟨86, _⟩ => ⟨S3300000x1, .f32⟩
  | .hbm, ⟨87, _⟩ => ⟨S3300000x64, .f32⟩
  | .hbm, ⟨88, _⟩ => ⟨S3300000x64, .f32⟩
  | .hbm, ⟨89, _⟩ => ⟨S_, .f32⟩
  | .hbm, ⟨90, _⟩ => ⟨S100000x64, .f32⟩
  | .hbm, ⟨91, _⟩ => ⟨S3300000x1, .i32⟩
  | .hbm, ⟨92, _⟩ => ⟨S100000x64, .f32⟩
  | .hbm, ⟨93, _⟩ => ⟨S1x64, .f32⟩
  | .hbm, ⟨94, _⟩ => ⟨S100000x64, .f32⟩
  | .hbm, ⟨95, _⟩ => ⟨S100000x64, .f32⟩
  | .hbm, ⟨96, _⟩ => ⟨S64x1, .f32⟩
  | .hbm, ⟨97, _⟩ => ⟨S100000x1, .f32⟩
  | .hbm, ⟨98, _⟩ => ⟨S1x1, .f32⟩
  | .hbm, ⟨99, _⟩ => ⟨S100000x1, .f32⟩
  | .hbm, ⟨100, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_call1_cst : Ref sig .tc := ⟨.hbm, 72, rfl⟩
abbrev main_call1_v0 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_10 : Ref sig .tc := ⟨.hbm, 77, rfl⟩
abbrev main_v53 : Ref sig .tc := ⟨.hbm, 78, rfl⟩
abbrev main_v54 : Ref sig .tc := ⟨.hbm, 79, rfl⟩
abbrev main_c_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_12 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  transposes_S64x128_S128x64_1_0 : S64x128.Transposes [1, 0] S128x64
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S64x64_S64x64_1_0 : S64x64.Transposes [1, 0] S64x64
  transposes_S1x64_S64x1_1_0 : S1x64.Transposes [1, 0] S64x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x64_S100000x64_1_0_0_1_n_n_wf : DotDims.WF S100000x128 S128x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KRun.lean ====
/-
  The program's run with its result named. Every weakly fair execution of the three-call program terminates without
  a fault; the result array ends at what the last call's write-backs leave in it (the last boundary's contents read at
  the result's buffer), and the eight argument arrays end as launched. The run is the launch over the program's ten
  segments (seven stretches of host operations and the three calls), each core's final buffers read against the final
  memory; the result is one more buffer read there beside the arguments.
-/
import proofs.«101046_j33964601377430_1_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with the result array at the last boundary's contents and the arguments unchanged. -/
theorem run_main : θ_run defs (onTc (τ := τ) (main (F := F))) ⟨m, fun _ => 0, ρ⟩ (fun r => ∀ c : Dev nD,
      r.2.mem ((c.tc : Thread nD τ).loc main_v71) = W10 m ρ c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v71 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.Out

end
-- ==== Proof.LibMatSum.lean ====
/-
  A matrix product read at an entry, at the ideal values, for any dimension record that contracts the left
  operand's columns with the right operand's rows (no batch axis): the entry `(a, b)` of `A · B` is
  `∑ c, A (a, c) · B (c, b)`, for the host's product and for the matrix unit's product into a zero accumulator alike.
  (The record's well-formedness witness is a proposition, so every such record is the library's plain one.)
-/
import Idealize.ShloMosaic.Lib.StackMember
import Idealize.ShloMosaic.Lib.ValueIdx
import Idealize.ShloMosaic.PureOps.Ideal.Laws

noncomputable section

namespace Idealize.ShloMosaic.MatSum

open Idealize.ShloMosaic Idealize.ShloMosaic.ValueIdx

variable {m k n : Nat} {φ₁ φ₂ : FTy}

/-- A record with the plain product's dimension numbers is the plain record. -/
theorem eq_plain (w : DotDims.WF ⟨2, ![m, k]⟩ ⟨2, ![k, n]⟩ ⟨2, ![m, n]⟩ [1] [0] [0] [1] [] []) :
    (⟨[1], [0], [0], [1], [], [], w⟩ : DotDims ⟨2, ![m, k]⟩ ⟨2, ![k, n]⟩ ⟨2, ![m, n]⟩) = DotDims.plain m k n := rfl

/-- The plain record's operand indices at output `(a, b)` and contraction position `c`. -/
theorem plain_lhsIdx (a : Fin m) (b : Fin n) (c : Fin k) :
    (DotDims.plain m k n).lhsIdx (ix2 a b) ((contrEquiv1 (DotDims.plain m k n) k rfl rfl).symm c) = ix2 a c := by
  have c2 := contrEquiv1_symm_val (DotDims.plain m k n) k rfl rfl c
  funext ax; apply Fin.ext
  match ax with
  | ⟨0, _⟩ => simp [DotDims.lhsIdx, DotDims.plain]; rfl
  | ⟨1, _⟩ => simp [DotDims.lhsIdx, DotDims.plain]; exact c2

theorem plain_rhsIdx (a : Fin m) (b : Fin n) (c : Fin k) :
    (DotDims.plain m k n).rhsIdx (ix2 a b) ((contrEquiv1 (DotDims.plain m k n) k rfl rfl).symm c) = ix2 c b := by
  have c2 := contrEquiv1_symm_val (DotDims.plain m k n) k rfl rfl c
  funext ax; apply Fin.ext
  match ax with
  | ⟨0, _⟩ => simp [DotDims.rhsIdx, DotDims.plain]; exact c2
  | ⟨1, _⟩ => simp [DotDims.rhsIdx, DotDims.plain]; rfl

/-- The host's product at an entry. -/
theorem dotGeneral_entry (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  rw [eq_plain]
  exact StackMember.dotGeneral_plain_apply prec A B a b

/-- The matrix unit's product into a zero accumulator at an entry. -/
theorem matmul_zero_entry (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (⟨2, ![m, n]⟩ : Shape) .f32 0x00000000#32) (ix2 a b)
      = ∑ c : Fin k, A (ix2 a c) * B (ix2 c b) := by
  rw [eq_plain]
  show FloatOps.matmul _ prec A B (constant _ .f32 0x00000000#32) (ix2 a b) = _
  rw [Ideal.matmul_constant_zero_apply, ← Equiv.sum_comp (contrEquiv1 (DotDims.plain m k n) k rfl rfl).symm]
  refine Finset.sum_congr rfl fun c _ => ?_
  rw [plain_lhsIdx, plain_rhsIdx]

end Idealize.ShloMosaic.MatSum

end
-- ==== Proof.MatSpec.lean ====
/-
  The matrix product as a function of two arrays, entry by entry: entry `(a, b)` of `X · W` is the sum over the
  contracted position `c` of `X (a, c) · W (c, b)`. Over the extended reals the sum is a commutative-monoid sum, so no
  order or grouping of the terms matters. The host's product of two matrices is this function.
-/
import proofs.«101046_j33964601377430_1_alg».proof.Proof.LibMatSum

noncomputable section

namespace Cert.Spec

open Idealize.ShloMosaic Idealize.ShloMosaic.ValueIdx

/-- `X · W`, entry by entry. -/
def mm {a k n : ℕ} (X : FVec Ideal ⟨2, ![a, k]⟩ .f32) (W : FVec Ideal ⟨2, ![k, n]⟩ .f32) : FVec Ideal ⟨2, ![a, n]⟩ .f32 :=
  fun i => ∑ c : Fin k, X (ix2 (i 0) c) * W (ix2 c (i 1))

theorem mm_entry {a k n : ℕ} (X : FVec Ideal ⟨2, ![a, k]⟩ .f32) (W : FVec Ideal ⟨2, ![k, n]⟩ .f32) (p : Fin a) (q : Fin n) :
    mm X W (ix2 p q) = ∑ c : Fin k, X (ix2 p c) * W (ix2 c q) := rfl

/-- The host's product of two matrices (the left operand's columns contracted with the right operand's rows) is `mm`. -/
theorem dotGeneral_eq_mm {a k n : ℕ} (w : DotDims.WF ⟨2, ![a, k]⟩ ⟨2, ![k, n]⟩ ⟨2, ![a, n]⟩ [1] [0] [0] [1] [] [])
    (prec : Option ContractPrecision) (X : FVec Ideal ⟨2, ![a, k]⟩ .f32) (W : FVec Ideal ⟨2, ![k, n]⟩ .f32) :
    Host.dotGeneral (⟨[1], [0], [0], [1], [], [], w⟩ : DotDims ⟨2, ![a, k]⟩ ⟨2, ![k, n]⟩ ⟨2, ![a, n]⟩) prec X W = mm X W := by
  funext i
  rw [eq_ix2 i]
  exact MatSum.dotGeneral_entry w prec X W (i 0) (i 1)

end Cert.Spec

end
-- ==== Proof.Call0.lean ====
/-
  Call 0 of the program: a row-tiled matrix product. The grid has ten points; point `t` stages rows
  `10000·t … 10000·t + 9999` of the left operand and the whole right operand, multiplies them on the matrix unit
  into a zero accumulator (the roundings to the narrow float format on the way in are the identity on the extended
  reals), and writes the product back to the same rows of the result. So block `t` of the result is block `t` of the
  matrix product of the two whole arrays, the ten blocks tile the result, and after the call the result array IS that
  product, whatever the arrays held when the call was entered.
-/
import proofs.«101046_j33964601377430_1_alg».proof.Proof.Gen.KernelIdeal.Frame
import proofs.«101046_j33964601377430_1_alg».proof.Proof.MatSpec
import Idealize.ShloMosaic.Lib.Pipeline.Value
import Idealize.ShloMosaic.Lib.ValueIdx

set_option maxRecDepth 16384

noncomputable section

namespace Cert.KernelIdeal.Call0

open Cert.KernelIdeal Cert.KernelIdeal.Gen Cert.Spec
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's value at an entry of its block: the product's sum over the contracted position. -/
theorem pay_entry (x0 : Vec Ideal S10000x128 .f32) (x1 : Vec Ideal S128x64 .f32) (p : Fin 10000) (q : Fin 64) :
    k0_pay1 (F := Ideal) x0 x1 (ix2 p q) = ∑ c : Fin 128, x0 (ix2 p c) * x1 (ix2 c q) := by
  unfold k0_pay1
  rw [shapeCast_self]
  exact MatSum.matmul_zero_entry _ none x0 x1 p q

/-- The printed index maps over the grid: the left operand's and the result's blocks move together down the rows,
    point `t` at block `t`; the right operand's block never moves. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

/-- Every row block is some point's. -/
theorem idx_onto : ∀ q0 : Fin 10, ∃ t : Fin cfg0.N, t.val = q0.val :=
  (by decide +kernel : ∀ q0 : Fin 10, ∃ t : Fin grid0.N, t.val = q0.val)

/-- The left operand's block at point `t`, read at `(p, c)`: the array at row `10000·t + p`. -/
theorem read_x (c : Dev nD) (t : Fin cfg0.N) (p : Fin 10000) (k : Fin 128) (r : Fin 100000) (hr : r.val = t.val * 10000 + p.val) :
    iblk0 V c 0 t (ix2 p k) = V c main_arg0 (ix2 r k) := by
  obtain ⟨e0, e1, -, -, -, -, -⟩ := idx_facts t
  show V c main_arg0 (((cfg0.win 0).blk t).view.emb (ix2 p k)) = V c main_arg0 (ix2 r k)
  refine congrArg _ ?_
  funext a; apply Fin.ext
  match a with
  | ⟨0, _⟩ => show win0_0.index t (0 : Fin 2) * 10000 + 1 * p.val = r.val; omega
  | ⟨1, _⟩ => show win0_0.index t (1 : Fin 2) * 128 + 1 * k.val = k.val; omega

/-- The right operand's block at any point is the whole array. -/
theorem read_w (c : Dev nD) (t : Fin cfg0.N) (k : Fin 128) (q : Fin 64) :
    iblk0 V c 1 t (ix2 k q) = V c main_v32 (ix2 k q) := by
  obtain ⟨-, -, e2, e3, -, -, -⟩ := idx_facts t
  show V c main_v32 (((cfg0.win 1).blk t).view.emb (ix2 k q)) = V c main_v32 (ix2 k q)
  refine congrArg _ ?_
  funext a; apply Fin.ext
  match a with
  | ⟨0, _⟩ => show win0_1.index t (0 : Fin 2) * 128 + 1 * k.val = k.val; omega
  | ⟨1, _⟩ => show win0_1.index t (1 : Fin 2) * 64 + 1 * q.val = q.val; omega

/-- What point `t` writes back: block `t` of the product of the two arrays as the call finds them. -/
theorem flushed_eq (c : Dev nD) (t : Fin cfg0.N) :
    (dat0 V c).flushed 2 t = ((cfg0.win 2).blk t).view.read (Elt Ideal) (mm (V c main_arg0) (V c main_v32)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  obtain ⟨-, -, -, -, e4, e5, ht⟩ := idx_facts t
  funext j
  obtain ⟨p, q, rfl⟩ : ∃ (p : Fin 10000) (q : Fin 64), j = ix2 p q := ⟨j 0, j 1, eq_ix2 j⟩
  have hr : t.val * 10000 + p.val < 100000 := by have := p.isLt; omega
  have hemb : ((cfg0.win 2).blk t).view.emb (ix2 p q) = ix2 (⟨t.val * 10000 + p.val, hr⟩ : Fin 100000) q := by
    funext a; apply Fin.ext
    match a with
    | ⟨0, _⟩ => show win0_2.index t (0 : Fin 2) * 10000 + 1 * p.val = t.val * 10000 + p.val; omega
    | ⟨1, _⟩ => show win0_2.index t (1 : Fin 2) * 64 + 1 * q.val = q.val; omega
  show k0_pay1 (iblk0 V c 0 t) (iblk0 V c 1 t) (ix2 p q) = mm (V c main_arg0) (V c main_v32) (((cfg0.win 2).blk t).view.emb (ix2 p q))
  refine ((pay_entry _ _ p q).trans ?_).trans (congrArg (mm (V c main_arg0) (V c main_v32)) hemb).symm
  refine (Finset.sum_congr rfl fun k _ => ?_).trans (mm_entry _ _ _ _).symm
  rw [read_x V c t p k ⟨_, hr⟩ rfl, read_w V c t k q]

/-- An index of the result is in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v33).slice (win0_2.rect t)).set ↔ _
  rw [View.set_slice_whole, Rect.mem_set_unit]
  exact Iff.rfl

/-- The ten row blocks tile the result: row `r` is in the block of point `r / 10000`. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 10000, by omega⟩
  have ht' : t.val = (i 0).val / 10000 := ht
  obtain ⟨-, -, -, -, e4, e5, -⟩ := idx_facts t
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the call the result array is the product of the two arrays the call found. -/
theorem value (c : Dev nD) : (dat0 V c).arrAt 2 cfg0.N = mm (V c main_arg0) (V c main_v32) :=
  (dat0 V c).arrAt_eq_of_cover 2 (mm (V c main_arg0) (V c main_v32)) (fun t _ => flushed_eq V c t) cover

end Cert.KernelIdeal.Call0

end
-- ==== Proof.Stage0.lean ====
/-
  The program up to and through its first call, read buffer by buffer at the ideal values. Before the first call the
  host builds, from the edge list alone, the source and destination index vectors (each edge list row followed by
  the self-loops `0 … 99999`), the in-degree of every node, its inverse square root where the degree is positive, and
  from these the symmetric normalisation weight of every edge; and it transposes the first weight matrix. None of
  these operations writes an argument. Stretch by stretch each of these buffers holds exactly the value the reference
  program computes for it from the same arguments (the two programs apply the same operations, so each equation is by
  unfolding both sides once the buffers read from the previous stretch are replaced by their values). The first call
  leaves the product of the node features with the transposed weights in its result, which is the reference's first
  matrix product; everything else is as the call found it.
-/
import proofs.«101046_j33964601377430_1_alg».proof.Proof.Gen.KernelIdeal.Frame
import proofs.«101046_j33964601377430_1_alg».proof.Proof.RefRead
import proofs.«101046_j33964601377430_1_alg».proof.Proof.MatSpec
import proofs.«101046_j33964601377430_1_alg».proof.Proof.Call0
import Idealize.ShloMosaic.Lib.StableHlo.Run

set_option maxRecDepth 16384

noncomputable section

namespace Cert.KernelIdeal.Chain

open Cert.KernelIdeal Cert.KernelIdeal.Gen Cert.Spec Cert.ReferenceIdeal.ReadP
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-! ## After the operations before the degree's selection -/

set_option maxHeartbeats 4000000 in
/-- The source index vector is the reference's, of the same edge list. -/
theorem W1_v3 : W1 m ρ c (Proc.devRef .tc main_v3) = val_main_v3 (F := Ideal) (m ((c : Thread nD τ).loc main_arg1)) := by
  show StableHlo.after hostOps0 (W0 m ρ c) (Proc.devRef .tc main_v3) = _
  after_results_simp
  all_goals rfl

set_option maxHeartbeats 4000000 in
/-- The destination index vector is the reference's, of the same edge list. -/
theorem W1_v6 : W1 m ρ c (Proc.devRef .tc main_v6) = val_main_v6 (F := Ideal) (m ((c : Thread nD τ).loc main_arg1)) := by
  show StableHlo.after hostOps0 (W0 m ρ c) (Proc.devRef .tc main_v6) = _
  after_results_simp
  all_goals rfl

set_option maxHeartbeats 4000000 in
/-- Where the in-degree is positive: the reference's mask. -/
theorem W1_v12 : W1 m ρ c (Proc.devRef .tc main_v12) = val_main_v12 (F := Ideal) (m ((c : Thread nD τ).loc main_arg1)) := by
  show StableHlo.after hostOps0 (W0 m ρ c) (Proc.devRef .tc main_v12) = _
  after_results_simp
  all_goals rfl

set_option maxHeartbeats 4000000 in
/-- The inverse square root of the in-degree clamped below at one: the reference's. -/
theorem W1_v15 : W1 m ρ c (Proc.devRef .tc main_v15) = val_main_v15 (F := Ideal) (m ((c : Thread nD τ).loc main_arg1)) := by
  show StableHlo.after hostOps0 (W0 m ρ c) (Proc.devRef .tc main_v15) = _
  after_results_simp
  all_goals rfl

set_option maxHeartbeats 4000000 in
/-- The zero the selection falls back to. -/
theorem W1_cst_3 : W1 m ρ c (Proc.devRef .tc main_cst_3) = val_main_cst_3 (F := Ideal) := by
  show StableHlo.after hostOps0 (W0 m ρ c) (Proc.devRef .tc main_cst_3) = _
  after_results_simp
  all_goals rfl

set_option maxHeartbeats 4000000 in
/-- These operations do not write argument 0. -/
theorem W1_arg0 : W1 m ρ c (Proc.devRef .tc main_arg0) = (m ((c : Thread nD τ).loc main_arg0)) := by
  show StableHlo.after hostOps0 (W0 m ρ c) (Proc.devRef .tc main_arg0) = _
  after_results_simp
  all_goals rfl

set_option maxHeartbeats 4000000 in
/-- These operations do not write argument 2. -/
theorem W1_arg2 : W1 m ρ c (Proc.devRef .tc main_arg2) = (m ((c : Thread nD τ).loc main_arg2)) := by
  show StableHlo.after hostOps0 (W0 m ρ c) (Proc.devRef .tc main_arg2) = _
  after_results_simp
  all_goals rfl

set_option maxHeartbeats 4000000 in
/-- These operations do not write argument 3. -/
theorem W1_arg3 : W1 m ρ c (Proc.devRef .tc main_arg3) = (m ((c : Thread nD τ).loc main_arg3)) := by
  show StableHlo.after hostOps0 (W0 m ρ c) (Proc.devRef .tc main_arg3) = _
  after_results_simp
  all_goals rfl

set_option maxHeartbeats 4000000 in
/-- These operations do not write argument 4. -/
theorem W1_arg4 : W1 m ρ c (Proc.devRef .tc main_arg4) = (m ((c : Thread nD τ).loc main_arg4)) := by
  show StableHlo.after hostOps0 (W0 m ρ c) (Proc.devRef .tc main_arg4) = _
  after_results_simp
  all_goals rfl

set_option maxHeartbeats 4000000 in
/-- These operations do not write argument 5. -/
theorem W1_arg5 : W1 m ρ c (Proc.devRef .tc main_arg5) = (m ((c : Thread nD τ).loc main_arg5)) := by
  show StableHlo.after hostOps0 (W0 m ρ c) (Proc.devRef .tc main_arg5) = _
  after_results_simp
  all_goals rfl

set_option maxHeartbeats 4000000 in
/-- These operations do not write argument 6. -/
theorem W1_arg6 : W1 m ρ c (Proc.devRef .tc main_arg6) = (m ((c : Thread nD τ).loc main_arg6)) := by
  show StableHlo.after hostOps0 (W0 m ρ c) (Proc.devRef .tc main_arg6) = _
  after_results_simp
  all_goals rfl

set_option maxHeartbeats 4000000 in
/-- These operations do not write argument 7. -/
theorem W1_arg7 : W1 m ρ c (Proc.devRef .tc main_arg7) = (m ((c : Thread nD τ).loc main_arg7)) := by
  show StableHlo.after hostOps0 (W0 m ρ c) (Proc.devRef .tc main_arg7) = _
  after_results_simp
  all_goals rfl

/-! ## After the selection -/

set_option maxHeartbeats 4000000 in
/-- The selection, over any buffer contents: where the mask is set the inverse square root, elsewhere the zero. -/
theorem select_step (Wv : Valuation τ sig (Elt Ideal)) :
    StableHlo.after hostOps0_1 Wv (Proc.devRef .tc main_v16)
      = select (Wv (Proc.devRef .tc main_v12)) (Wv (Proc.devRef .tc main_v15))
          (broadcastInDim S100000 ![] bcast_S_S100000 (Wv (Proc.devRef .tc main_cst_3))) := by
  after_results_simp
  all_goals rfl

/-- The inverse square root of the in-degree where it is positive, zero elsewhere: the reference's. -/
theorem W2_v16 : W2 m ρ c (Proc.devRef .tc main_v16) = val_main_v16 (F := Ideal) (m ((c : Thread nD τ).loc main_arg1)) := by
  refine (select_step (W1 m ρ c)).trans ?_
  rw [W1_v12 m ρ c, W1_v15 m ρ c, W1_cst_3 m ρ c]
  all_goals rfl

set_option maxHeartbeats 4000000 in
/-- The selection does not write the source index vector. -/
theorem W2_v3 : W2 m ρ c (Proc.devRef .tc main_v3) = val_main_v3 (F := Ideal) (m ((c : Thread nD τ).loc main_arg1)) := by
  show StableHlo.after hostOps0_1 (W1 m ρ c) (Proc.devRef .tc main_v3) = _
  generalize hW : W1 m ρ c = Wv
  after_results_simp
  subst hW
  exact W1_v3 m ρ c

set_option maxHeartbeats 4000000 in
/-- The selection does not write the destination index vector. -/
theorem W2_v6 : W2 m ρ c (Proc.devRef .tc main_v6) = val_main_v6 (F := Ideal) (m ((c : Thread nD τ).loc main_arg1)) := by
  show StableHlo.after hostOps0_1 (W1 m ρ c) (Proc.devRef .tc main_v6) = _
  generalize hW : W1 m ρ c = Wv
  after_results_simp
  subst hW
  exact W1_v6 m ρ c

set_option maxHeartbeats 4000000 in
/-- The selection does not write argument 0. -/
theorem W2_arg0 : W2 m ρ c (Proc.devRef .tc main_arg0) = (m ((c : Thread nD τ).loc main_arg0)) := by
  show StableHlo.after hostOps0_1 (W1 m ρ c) (Proc.devRef .tc main_arg0) = _
  generalize hW : W1 m ρ c = Wv
  after_results_simp
  subst hW
  exact W1_arg0 m ρ c

set_option maxHeartbeats 4000000 in
/-- The selection does not write argument 2. -/
theorem W2_arg2 : W2 m ρ c (Proc.devRef .tc main_arg2) = (m ((c : Thread nD τ).loc main_arg2)) := by
  show StableHlo.after hostOps0_1 (W1 m ρ c) (Proc.devRef .tc main_arg2) = _
  generalize hW : W1 m ρ c = Wv
  after_results_simp
  subst hW
  exact W1_arg2 m ρ c

set_option maxHeartbeats 4000000 in
/-- The selection does not write argument 3. -/
theorem W2_arg3 : W2 m ρ c (Proc.devRef .tc main_arg3) = (m ((c : Thread nD τ).loc main_arg3)) := by
  show StableHlo.after hostOps0_1 (W1 m ρ c) (Proc.devRef .tc main_arg3) = _
  generalize hW : W1 m ρ c = Wv
  after_results_simp
  subst hW
  exact W1_arg3 m ρ c

set_option maxHeartbeats 4000000 in
/-- The selection does not write argument 4. -/
theorem W2_arg4 : W2 m ρ c (Proc.devRef .tc main_arg4) = (m ((c : Thread nD τ).loc main_arg4)) := by
  show StableHlo.after hostOps0_1 (W1 m ρ c) (Proc.devRef .tc main_arg4) = _
  generalize hW : W1 m ρ c = Wv
  after_results_simp
  subst hW
  exact W1_arg4 m ρ c

set_option maxHeartbeats 4000000 in
/-- The selection does not write argument 5. -/
theorem W2_arg5 : W2 m ρ c (Proc.devRef .tc main_arg5) = (m ((c : Thread nD τ).loc main_arg5)) := by
  show StableHlo.after hostOps0_1 (W1 m ρ c) (Proc.devRef .tc main_arg5) = _
  generalize hW : W1 m ρ c = Wv
  after_results_simp
  subst hW
  exact W1_arg5 m ρ c

set_option maxHeartbeats 4000000 in
/-- The selection does not write argument 6. -/
theorem W2_arg6 : W2 m ρ c (Proc.devRef .tc main_arg6) = (m ((c : Thread nD τ).loc main_arg6)) := by
  show StableHlo.after hostOps0_1 (W1 m ρ c) (Proc.devRef .tc main_arg6) = _
  generalize hW : W1 m ρ c = Wv
  after_results_simp
  subst hW
  exact W1_arg6 m ρ c

set_option maxHeartbeats 4000000 in
/-- The selection does not write argument 7. -/
theorem W2_arg7 : W2 m ρ c (Proc.devRef .tc main_arg7) = (m ((c : Thread nD τ).loc main_arg7)) := by
  show StableHlo.after hostOps0_1 (W1 m ρ c) (Proc.devRef .tc main_arg7) = _
  generalize hW : W1 m ρ c = Wv
  after_results_simp
  subst hW
  exact W1_arg7 m ρ c

/-! ## At the first call's entry -/

set_option maxHeartbeats 4000000 in
/-- The edge weight vector at the first call's entry is the reference's, of the same edge list. -/
theorem W3_v31 : W3 m ρ c (Proc.devRef .tc main_v31) = val_main_v31 (F := Ideal) (m ((c : Thread nD τ).loc main_arg1)) := by
  show StableHlo.after hostOps0_2 (W2 m ρ c) (Proc.devRef .tc main_v31) = _
  generalize hW : W2 m ρ c = Wv
  after_results_simp
  subst hW
  rw [W2_v16 m ρ c, W2_v3 m ρ c, W2_v6 m ρ c]
  all_goals rfl

set_option maxHeartbeats 4000000 in
/-- The transposed first weight matrix at the first call's entry. -/
theorem W3_v32 : W3 m ρ c (Proc.devRef .tc main_v32) = val_main_v32 (F := Ideal) (m ((c : Thread nD τ).loc main_arg2)) := by
  show StableHlo.after hostOps0_2 (W2 m ρ c) (Proc.devRef .tc main_v32) = _
  generalize hW : W2 m ρ c = Wv
  after_results_simp
  subst hW
  rw [W2_arg2 m ρ c]
  all_goals rfl

set_option maxHeartbeats 4000000 in
/-- The last operations before the first call do not write the source index vector. -/
theorem W3_v3 : W3 m ρ c (Proc.devRef .tc main_v3) = val_main_v3 (F := Ideal) (m ((c : Thread nD τ).loc main_arg1)) := by
  show StableHlo.after hostOps0_2 (W2 m ρ c) (Proc.devRef .tc main_v3) = _
  generalize hW : W2 m ρ c = Wv
  after_results_simp
  subst hW
  exact W2_v3 m ρ c

set_option maxHeartbeats 4000000 in
/-- The last operations before the first call do not write the destination index vector. -/
theorem W3_v6 : W3 m ρ c (Proc.devRef .tc main_v6) = val_main_v6 (F := Ideal) (m ((c : Thread nD τ).loc main_arg1)) := by
  show StableHlo.after hostOps0_2 (W2 m ρ c) (Proc.devRef .tc main_v6) = _
  generalize hW : W2 m ρ c = Wv
  after_results_simp
  subst hW
  exact W2_v6 m ρ c

set_option maxHeartbeats 4000000 in
/-- The last operations before the first call do not write argument 0. -/
theorem W3_arg0 : W3 m ρ c (Proc.devRef .tc main_arg0) = (m ((c : Thread nD τ).loc main_arg0)) := by
  show StableHlo.after hostOps0_2 (W2 m ρ c) (Proc.devRef .tc main_arg0) = _
  generalize hW : W2 m ρ c = Wv
  after_results_simp
  subst hW
  exact W2_arg0 m ρ c

set_option maxHeartbeats 4000000 in
/-- The last operations before the first call do not write argument 3. -/
theorem W3_arg3 : W3 m ρ c (Proc.devRef .tc main_arg3) = (m ((c : Thread nD τ).loc main_arg3)) := by
  show StableHlo.after hostOps0_2 (W2 m ρ c) (Proc.devRef .tc main_arg3) = _
  generalize hW : W2 m ρ c = Wv
  after_results_simp
  subst hW
  exact W2_arg3 m ρ c

set_option maxHeartbeats 4000000 in
/-- The last operations before the first call do not write argument 4. -/
theorem W3_arg4 : W3 m ρ c (Proc.devRef .tc main_arg4) = (m ((c : Thread nD τ).loc main_arg4)) := by
  show StableHlo.after hostOps0_2 (W2 m ρ c) (Proc.devRef .tc main_arg4) = _
  generalize hW : W2 m ρ c = Wv
  after_results_simp
  subst hW
  exact W2_arg4 m ρ c

set_option maxHeartbeats 4000000 in
/-- The last operations before the first call do not write argument 5. -/
theorem W3_arg5 : W3 m ρ c (Proc.devRef .tc main_arg5) = (m ((c : Thread nD τ).loc main_arg5)) := by
  show StableHlo.after hostOps0_2 (W2 m ρ c) (Proc.devRef .tc main_arg5) = _
  generalize hW : W2 m ρ c = Wv
  after_results_simp
  subst hW
  exact W2_arg5 m ρ c

set_option maxHeartbeats 4000000 in
/-- The last operations before the first call do not write argument 6. -/
theorem W3_arg6 : W3 m ρ c (Proc.devRef .tc main_arg6) = (m ((c : Thread nD τ).loc main_arg6)) := by
  show StableHlo.after hostOps0_2 (W2 m ρ c) (Proc.devRef .tc main_arg6) = _
  generalize hW : W2 m ρ c = Wv
  after_results_simp
  subst hW
  exact W2_arg6 m ρ c

set_option maxHeartbeats 4000000 in
/-- The last operations before the first call do not write argument 7. -/
theorem W3_arg7 : W3 m ρ c (Proc.devRef .tc main_arg7) = (m ((c : Thread nD τ).loc main_arg7)) := by
  show StableHlo.after hostOps0_2 (W2 m ρ c) (Proc.devRef .tc main_arg7) = _
  generalize hW : W2 m ρ c = Wv
  after_results_simp
  subst hW
  exact W2_arg7 m ρ c

/-! ## At the first call's exit -/

/-- The first call's result is the reference's first matrix product. -/
theorem W4_v33 : W4 m ρ c (Proc.devRef .tc main_v33) = val_main_v33 (F := Ideal) (m ((c : Thread nD τ).loc main_arg0)) (m ((c : Thread nD τ).loc main_arg2)) :=
  (W4_arr m ρ c 2).trans ((Call0.value (V3 m ρ) c).trans (by
    show mm (W3 m ρ c (Proc.devRef .tc main_arg0)) (W3 m ρ c (Proc.devRef .tc main_v32)) = _
    rw [W3_arg0 m ρ c, W3_v32 m ρ c]
    exact (dotGeneral_eq_mm _ none _ _).symm))

/-- The first call does not write the source index vector. -/
theorem W4_v3 : W4 m ρ c (Proc.devRef .tc main_v3) = val_main_v3 (F := Ideal) (m ((c : Thread nD τ).loc main_arg1)) :=
  (W4_of_ne m ρ c main_v3 (by decide)).trans (W3_v3 m ρ c)

/-- The first call does not write the destination index vector. -/
theorem W4_v6 : W4 m ρ c (Proc.devRef .tc main_v6) = val_main_v6 (F := Ideal) (m ((c : Thread nD τ).loc main_arg1)) :=
  (W4_of_ne m ρ c main_v6 (by decide)).trans (W3_v6 m ρ c)

/-- The first call does not write the edge weight vector. -/
theorem W4_v31 : W4 m ρ c (Proc.devRef .tc main_v31) = val_main_v31 (F := Ideal) (m ((c : Thread nD τ).loc main_arg1)) :=
  (W4_of_ne m ρ c main_v31 (by decide)).trans (W3_v31 m ρ c)

/-- The first call does not write argument 3. -/
theorem W4_arg3 : W4 m ρ c (Proc.devRef .tc main_arg3) = (m ((c : Thread nD τ).loc main_arg3)) :=
  (W4_of_ne m ρ c main_arg3 (by decide)).trans (W3_arg3 m ρ c)

/-- The first call does not write argument 4. -/
theorem W4_arg4 : W4 m ρ c (Proc.devRef .tc main_arg4) = (m ((c : Thread nD τ).loc main_arg4)) :=
  (W4_of_ne m ρ c main_arg4 (by decide)).trans (W3_arg4 m ρ c)

/-- The first call does not write argument 5. -/
theorem W4_arg5 : W4 m ρ c (Proc.devRef .tc main_arg5) = (m ((c : Thread nD τ).loc main_arg5)) :=
  (W4_of_ne m ρ c main_arg5 (by decide)).trans (W3_arg5 m ρ c)

/-- The first call does not write argument 6. -/
theorem W4_arg6 : W4 m ρ c (Proc.devRef .tc main_arg6) = (m ((c : Thread nD τ).loc main_arg6)) :=
  (W4_of_ne m ρ c main_arg6 (by decide)).trans (W3_arg6 m ρ c)

/-- The first call does not write argument 7. -/
theorem W4_arg7 : W4 m ρ c (Proc.devRef .tc main_arg7) = (m ((c : Thread nD τ).loc main_arg7)) :=
  (W4_of_ne m ρ c main_arg7 (by decide)).trans (W3_arg7 m ρ c)

end Cert.KernelIdeal.Chain

end
-- ==== Proof.Call1.lean ====
/-
  Call 1 of the program: a row-tiled matrix product. The grid has ten points; point `t` stages rows
  `10000·t … 10000·t + 9999` of the left operand and the whole right operand, multiplies them on the matrix unit
  into a zero accumulator (the roundings to the narrow float format on the way in are the identity on the extended
  reals), and writes the product back to the same rows of the result. So block `t` of the result is block `t` of the
  matrix product of the two whole arrays, the ten blocks tile the result, and after the call the result array IS that
  product, whatever the arrays held when the call was entered.
-/
import proofs.«101046_j33964601377430_1_alg».proof.Proof.Gen.KernelIdeal.Frame
import proofs.«101046_j33964601377430_1_alg».proof.Proof.MatSpec
import Idealize.ShloMosaic.Lib.Pipeline.Value
import Idealize.ShloMosaic.Lib.ValueIdx

set_option maxRecDepth 16384

noncomputable section

namespace Cert.KernelIdeal.Call1

open Cert.KernelIdeal Cert.KernelIdeal.Gen Cert.Spec
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's value at an entry of its block: the product's sum over the contracted position. -/
theorem pay_entry (x0 : Vec Ideal S10000x64 .f32) (x1 : Vec Ideal S64x64 .f32) (p : Fin 10000) (q : Fin 64) :
    k1_pay1 (F := Ideal) x0 x1 (ix2 p q) = ∑ c : Fin 64, x0 (ix2 p c) * x1 (ix2 c q) := by
  unfold k1_pay1
  rw [shapeCast_self, shapeCast_self]
  exact MatSum.matmul_zero_entry _ none x0 x1 p q

/-- The printed index maps over the grid: the left operand's and the result's blocks move together down the rows,
    point `t` at block `t`; the right operand's block never moves. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 10 :=
  (by decide +kernel : ∀ t : Fin grid1.N, _)

/-- Every row block is some point's. -/
theorem idx_onto : ∀ q0 : Fin 10, ∃ t : Fin cfg1.N, t.val = q0.val :=
  (by decide +kernel : ∀ q0 : Fin 10, ∃ t : Fin grid1.N, t.val = q0.val)

/-- The left operand's block at point `t`, read at `(p, c)`: the array at row `10000·t + p`. -/
theorem read_x (c : Dev nD) (t : Fin cfg1.N) (p : Fin 10000) (k : Fin 64) (r : Fin 100000) (hr : r.val = t.val * 10000 + p.val) :
    iblk1 V c 0 t (ix2 p k) = V c main_v50 (ix2 r k) := by
  obtain ⟨e0, e1, -, -, -, -, -⟩ := idx_facts t
  show V c main_v50 (((cfg1.win 0).blk t).view.emb (ix2 p k)) = V c main_v50 (ix2 r k)
  refine congrArg _ ?_
  funext a; apply Fin.ext
  match a with
  | ⟨0, _⟩ => show win1_0.index t (0 : Fin 2) * 10000 + 1 * p.val = r.val; omega
  | ⟨1, _⟩ => show win1_0.index t (1 : Fin 2) * 64 + 1 * k.val = k.val; omega

/-- The right operand's block at any point is the whole array. -/
theorem read_w (c : Dev nD) (t : Fin cfg1.N) (k : Fin 64) (q : Fin 64) :
    iblk1 V c 1 t (ix2 k q) = V c main_v51 (ix2 k q) := by
  obtain ⟨-, -, e2, e3, -, -, -⟩ := idx_facts t
  show V c main_v51 (((cfg1.win 1).blk t).view.emb (ix2 k q)) = V c main_v51 (ix2 k q)
  refine congrArg _ ?_
  funext a; apply Fin.ext
  match a with
  | ⟨0, _⟩ => show win1_1.index t (0 : Fin 2) * 64 + 1 * k.val = k.val; omega
  | ⟨1, _⟩ => show win1_1.index t (1 : Fin 2) * 64 + 1 * q.val = q.val; omega

/-- What point `t` writes back: block `t` of the product of the two arrays as the call finds them. -/
theorem flushed_eq (c : Dev nD) (t : Fin cfg1.N) :
    (dat1 V c).flushed 2 t = ((cfg1.win 2).blk t).view.read (Elt Ideal) (mm (V c main_v50) (V c main_v51)) := by
  show (cfg1.win 2).cut (grid1.coords t) ((dat1 V c).after 2 t) = _
  rw [after1_2]
  unfold out1_2
  rw [View.canon_unit_zero hz]
  simp only [View.ld_unit_zero (S := S10000x64) hz, View.ld_unit_zero (S := S64x64) hz]
  obtain ⟨-, -, -, -, e4, e5, ht⟩ := idx_facts t
  funext j
  obtain ⟨p, q, rfl⟩ : ∃ (p : Fin 10000) (q : Fin 64), j = ix2 p q := ⟨j 0, j 1, eq_ix2 j⟩
  have hr : t.val * 10000 + p.val < 100000 := by have := p.isLt; omega
  have hemb : ((cfg1.win 2).blk t).view.emb (ix2 p q) = ix2 (⟨t.val * 10000 + p.val, hr⟩ : Fin 100000) q := by
    funext a; apply Fin.ext
    match a with
    | ⟨0, _⟩ => show win1_2.index t (0 : Fin 2) * 10000 + 1 * p.val = t.val * 10000 + p.val; omega
    | ⟨1, _⟩ => show win1_2.index t (1 : Fin 2) * 64 + 1 * q.val = q.val; omega
  show k1_pay1 (iblk1 V c 0 t) (iblk1 V c 1 t) (ix2 p q) = mm (V c main_v50) (V c main_v51) (((cfg1.win 2).blk t).view.emb (ix2 p q))
  refine ((pay_entry _ _ p q).trans ?_).trans (congrArg (mm (V c main_v50) (V c main_v51)) hemb).symm
  refine (Finset.sum_congr rfl fun k _ => ?_).trans (mm_entry _ _ _ _).symm
  rw [read_x V c t p k ⟨_, hr⟩ rfl, read_w V c t k q]

/-- An index of the result is in point `t`'s block iff each coordinate is in the block's range on its axis. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v52).slice (win1_2.rect t)).set ↔ _
  rw [View.set_slice_whole, Rect.mem_set_unit]
  exact Iff.rfl

/-- The ten row blocks tile the result: row `r` is in the block of point `r / 10000`. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := idx_onto ⟨(i 0).val / 10000, by omega⟩
  have ht' : t.val = (i 0).val / 10000 := ht
  obtain ⟨-, -, -, -, e4, e5, -⟩ := idx_facts t
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- After the call the result array is the product of the two arrays the call found. -/
theorem value (c : Dev nD) : (dat1 V c).arrAt 2 cfg1.N = mm (V c main_v50) (V c main_v51) :=
  (dat1 V c).arrAt_eq_of_cover 2 (mm (V c main_v50) (V c main_v51)) (fun t _ => flushed_eq V c t) cover

end Cert.KernelIdeal.Call1

end
-- ==== Proof.Stage1.lean ====
/-
  The program between its first and second calls, and through the second call, read buffer by buffer at the ideal
  values. The host gathers the first product's rows by source index, scales each by its edge weight, scatter-adds them
  by destination index into zeros and adds the first bias; clamps the sum at zero; and transposes the second weight
  matrix: the same operations the reference applies to its own first product, so each buffer holds the reference's
  value (by unfolding both sides, the buffers read from before the stretch replaced by their values). The second call
  leaves the product of that activation with the transposed weights: the reference's second matrix product.
-/
import proofs.«101046_j33964601377430_1_alg».proof.Proof.Gen.KernelIdeal.Frame
import proofs.«101046_j33964601377430_1_alg».proof.Proof.RefRead
import proofs.«101046_j33964601377430_1_alg».proof.Proof.MatSpec
import proofs.«101046_j33964601377430_1_alg».proof.Proof.Stage0
import proofs.«101046_j33964601377430_1_alg».proof.Proof.Call1
import Idealize.ShloMosaic.Lib.StableHlo.Run

set_option maxRecDepth 16384

noncomputable section

namespace Cert.KernelIdeal.Chain

open Cert.KernelIdeal Cert.KernelIdeal.Gen Cert.Spec Cert.ReferenceIdeal.ReadP
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-! ## After the aggregation and the bias -/

set_option maxHeartbeats 4000000 in
/-- The aggregated first product plus bias is the reference's. -/
theorem W5_v49 : W5 m ρ c (Proc.devRef .tc main_v49) = val_main_v49 (F := Ideal) (m ((c : Thread nD τ).loc main_arg0)) (m ((c : Thread nD τ).loc main_arg1)) (m ((c : Thread nD τ).loc main_arg2)) (m ((c : Thread nD τ).loc main_arg3)) := by
  show StableHlo.after hostOps1 (W4 m ρ c) (Proc.devRef .tc main_v49) = _
  generalize hW : W4 m ρ c = Wv
  after_results_simp
  subst hW
  rw [W4_v33 m ρ c, W4_v3 m ρ c, W4_v6 m ρ c, W4_v31 m ρ c, W4_arg3 m ρ c]
  all_goals rfl

set_option maxHeartbeats 4000000 in
/-- The aggregation does not write the source index vector. -/
theorem W5_v3 : W5 m ρ c (Proc.devRef .tc main_v3) = val_main_v3 (F := Ideal) (m ((c : Thread nD τ).loc main_arg1)) := by
  show StableHlo.after hostOps1 (W4 m ρ c) (Proc.devRef .tc main_v3) = _
  generalize hW : W4 m ρ c = Wv
  after_results_simp
  subst hW
  exact W4_v3 m ρ c

set_option maxHeartbeats 4000000 in
/-- The aggregation does not write the destination index vector. -/
theorem W5_v6 : W5 m ρ c (Proc.devRef .tc main_v6) = val_main_v6 (F := Ideal) (m ((c : Thread nD τ).loc main_arg1)) := by
  show StableHlo.after hostOps1 (W4 m ρ c) (Proc.devRef .tc main_v6) = _
  generalize hW : W4 m ρ c = Wv
  after_results_simp
  subst hW
  exact W4_v6 m ρ c

set_option maxHeartbeats 4000000 in
/-- The aggregation does not write the edge weight vector. -/
theorem W5_v31 : W5 m ρ c (Proc.devRef .tc main_v31) = val_main_v31 (F := Ideal) (m ((c : Thread nD τ).loc main_arg1)) := by
  show StableHlo.after hostOps1 (W4 m ρ c) (Proc.devRef .tc main_v31) = _
  generalize hW : W4 m ρ c = Wv
  after_results_simp
  subst hW
  exact W4_v31 m ρ c

set_option maxHeartbeats 4000000 in
/-- The aggregation does not write argument 4. -/
theorem W5_arg4 : W5 m ρ c (Proc.devRef .tc main_arg4) = (m ((c : Thread nD τ).loc main_arg4)) := by
  show StableHlo.after hostOps1 (W4 m ρ c) (Proc.devRef .tc main_arg4) = _
  generalize hW : W4 m ρ c = Wv
  after_results_simp
  subst hW
  exact W4_arg4 m ρ c

set_option maxHeartbeats 4000000 in
/-- The aggregation does not write argument 5. -/
theorem W5_arg5 : W5 m ρ c (Proc.devRef .tc main_arg5) = (m ((c : Thread nD τ).loc main_arg5)) := by
  show StableHlo.after hostOps1 (W4 m ρ c) (Proc.devRef .tc main_arg5) = _
  generalize hW : W4 m ρ c = Wv
  after_results_simp
  subst hW
  exact W4_arg5 m ρ c

set_option maxHeartbeats 4000000 in
/-- The aggregation does not write argument 6. -/
theorem W5_arg6 : W5 m ρ c (Proc.devRef .tc main_arg6) = (m ((c : Thread nD τ).loc main_arg6)) := by
  show StableHlo.after hostOps1 (W4 m ρ c) (Proc.devRef .tc main_arg6) = _
  generalize hW : W4 m ρ c = Wv
  after_results_simp
  subst hW
  exact W4_arg6 m ρ c

set_option maxHeartbeats 4000000 in
/-- The aggregation does not write argument 7. -/
theorem W5_arg7 : W5 m ρ c (Proc.devRef .tc main_arg7) = (m ((c : Thread nD τ).loc main_arg7)) := by
  show StableHlo.after hostOps1 (W4 m ρ c) (Proc.devRef .tc main_arg7) = _
  generalize hW : W4 m ρ c = Wv
  after_results_simp
  subst hW
  exact W4_arg7 m ρ c

/-! ## After the clamp at zero -/

set_option maxHeartbeats 4000000 in
/-- The clamp at zero, over any buffer contents. -/
theorem clamp_step (Wv : Valuation τ sig (Elt Ideal)) :
    StableHlo.after hostOps1_1 Wv (Proc.devRef .tc main_v50)
      = maximumf (Wv (Proc.devRef .tc main_v49))
          (broadcastInDim S100000x64 ![] bcast_S_S100000x64 (constant (F := Ideal) S_ .f32 0x00000000#32)) := by
  after_results_simp
  all_goals rfl

/-- The activation the second call multiplies is the reference's. -/
theorem W6_v50 : W6 m ρ c (Proc.devRef .tc main_v50) = val_main_v50 (F := Ideal) (m ((c : Thread nD τ).loc main_arg0)) (m ((c : Thread nD τ).loc main_arg1)) (m ((c : Thread nD τ).loc main_arg2)) (m ((c : Thread nD τ).loc main_arg3)) := by
  refine (clamp_step (W5 m ρ c)).trans ?_
  rw [W5_v49 m ρ c]
  all_goals rfl

set_option maxHeartbeats 4000000 in
/-- The clamp does not write the source index vector. -/
theorem W6_v3 : W6 m ρ c (Proc.devRef .tc main_v3) = val_main_v3 (F := Ideal) (m ((c : Thread nD τ).loc main_arg1)) := by
  show StableHlo.after hostOps1_1 (W5 m ρ c) (Proc.devRef .tc main_v3) = _
  generalize hW : W5 m ρ c = Wv
  after_results_simp
  subst hW
  exact W5_v3 m ρ c

set_option maxHeartbeats 4000000 in
/-- The clamp does not write the destination index vector. -/
theorem W6_v6 : W6 m ρ c (Proc.devRef .tc main_v6) = val_main_v6 (F := Ideal) (m ((c : Thread nD τ).loc main_arg1)) := by
  show StableHlo.after hostOps1_1 (W5 m ρ c) (Proc.devRef .tc main_v6) = _
  generalize hW : W5 m ρ c = Wv
  after_results_simp
  subst hW
  exact W5_v6 m ρ c

set_option maxHeartbeats 4000000 in
/-- The clamp does not write the edge weight vector. -/
theorem W6_v31 : W6 m ρ c (Proc.devRef .tc main_v31) = val_main_v31 (F := Ideal) (m ((c : Thread nD τ).loc main_arg1)) := by
  show StableHlo.after hostOps1_1 (W5 m ρ c) (Proc.devRef .tc main_v31) = _
  generalize hW : W5 m ρ c = Wv
  after_results_simp
  subst hW
  exact W5_v31 m ρ c

set_option maxHeartbeats 4000000 in
/-- The clamp does not write argument 4. -/
theorem W6_arg4 : W6 m ρ c (Proc.devRef .tc main_arg4) = (m ((c : Thread nD τ).loc main_arg4)) := by
  show StableHlo.after hostOps1_1 (W5 m ρ c) (Proc.devRef .tc main_arg4) = _
  generalize hW : W5 m ρ c = Wv
  after_results_simp
  subst hW
  exact W5_arg4 m ρ c

set_option maxHeartbeats 4000000 in
/-- The clamp does not write argument 5. -/
theorem W6_arg5 : W6 m ρ c (Proc.devRef .tc main_arg5) = (m ((c : Thread nD τ).loc main_arg5)) := by
  show StableHlo.after hostOps1_1 (W5 m ρ c) (Proc.devRef .tc main_arg5) = _
  generalize hW : W5 m ρ c = Wv
  after_results_simp
  subst hW
  exact W5_arg5 m ρ c

set_option maxHeartbeats 4000000 in
/-- The clamp does not write argument 6. -/
theorem W6_arg6 : W6 m ρ c (Proc.devRef .tc main_arg6) = (m ((c : Thread nD τ).loc main_arg6)) := by
  show StableHlo.after hostOps1_1 (W5 m ρ c) (Proc.devRef .tc main_arg6) = _
  generalize hW : W5 m ρ c = Wv
  after_results_simp
  subst hW
  exact W5_arg6 m ρ c

set_option maxHeartbeats 4000000 in
/-- The clamp does not write argument 7. -/
theorem W6_arg7 : W6 m ρ c (Proc.devRef .tc main_arg7) = (m ((c : Thread nD τ).loc main_arg7)) := by
  show StableHlo.after hostOps1_1 (W5 m ρ c) (Proc.devRef .tc main_arg7) = _
  generalize hW : W5 m ρ c = Wv
  after_results_simp
  subst hW
  exact W5_arg7 m ρ c

/-! ## At the second call's entry -/

set_option maxHeartbeats 4000000 in
/-- The transposed second weight matrix at the second call's entry. -/
theorem W7_v51 : W7 m ρ c (Proc.devRef .tc main_v51) = val_main_v51 (F := Ideal) (m ((c : Thread nD τ).loc main_arg4)) := by
  show StableHlo.after hostOps1_2 (W6 m ρ c) (Proc.devRef .tc main_v51) = _
  generalize hW : W6 m ρ c = Wv
  after_results_simp
  subst hW
  rw [W6_arg4 m ρ c]
  all_goals rfl

set_option maxHeartbeats 4000000 in
/-- The transposition does not write the activation. -/
theorem W7_v50 : W7 m ρ c (Proc.devRef .tc main_v50) = val_main_v50 (F := Ideal) (m ((c : Thread nD τ).loc main_arg0)) (m ((c : Thread nD τ).loc main_arg1)) (m ((c : Thread nD τ).loc main_arg2)) (m ((c : Thread nD τ).loc main_arg3)) := by
  show StableHlo.after hostOps1_2 (W6 m ρ c) (Proc.devRef .tc main_v50) = _
  generalize hW : W6 m ρ c = Wv
  after_results_simp
  subst hW
  exact W6_v50 m ρ c

set_option maxHeartbeats 4000000 in
/-- The transposition does not write the source index vector. -/
theorem W7_v3 : W7 m ρ c (Proc.devRef .tc main_v3) = val_main_v3 (F := Ideal) (m ((c : Thread nD τ).loc main_arg1)) := by
  show StableHlo.after hostOps1_2 (W6 m ρ c) (Proc.devRef .tc main_v3) = _
  generalize hW : W6 m ρ c = Wv
  after_results_simp
  subst hW
  exact W6_v3 m ρ c

set_option maxHeartbeats 4000000 in
/-- The transposition does not write the destination index vector. -/
theorem W7_v6 : W7 m ρ c (Proc.devRef .tc main_v6) = val_main_v6 (F := Ideal) (m ((c : Thread nD τ).loc main_arg1)) := by
  show StableHlo.after hostOps1_2 (W6 m ρ c) (Proc.devRef .tc main_v6) = _
  generalize hW : W6 m ρ c = Wv
  after_results_simp
  subst hW
  exact W6_v6 m ρ c

set_option maxHeartbeats 4000000 in
/-- The transposition does not write the edge weight vector. -/
theorem W7_v31 : W7 m ρ c (Proc.devRef .tc main_v31) = val_main_v31 (F := Ideal) (m ((c : Thread nD τ).loc main_arg1)) := by
  show StableHlo.after hostOps1_2 (W6 m ρ c) (Proc.devRef .tc main_v31) = _
  generalize hW : W6 m ρ c = Wv
  after_results_simp
  subst hW
  exact W6_v31 m ρ c

set_option maxHeartbeats 4000000 in
/-- The transposition does not write argument 5. -/
theorem W7_arg5 : W7 m ρ c (Proc.devRef .tc main_arg5) = (m ((c : Thread nD τ).loc main_arg5)) := by
  show StableHlo.after hostOps1_2 (W6 m ρ c) (Proc.devRef .tc main_arg5) = _
  generalize hW : W6 m ρ c = Wv
  after_results_simp
  subst hW
  exact W6_arg5 m ρ c

set_option maxHeartbeats 4000000 in
/-- The transposition does not write argument 6. -/
theorem W7_arg6 : W7 m ρ c (Proc.devRef .tc main_arg6) = (m ((c : Thread nD τ).loc main_arg6)) := by
  show StableHlo.after hostOps1_2 (W6 m ρ c) (Proc.devRef .tc main_arg6) = _
  generalize hW : W6 m ρ c = Wv
  after_results_simp
  subst hW
  exact W6_arg6 m ρ c

set_option maxHeartbeats 4000000 in
/-- The transposition does not write argument 7. -/
theorem W7_arg7 : W7 m ρ c (Proc.devRef .tc main_arg7) = (m ((c : Thread nD τ).loc main_arg7)) := by
  show StableHlo.after hostOps1_2 (W6 m ρ c) (Proc.devRef .tc main_arg7) = _
  generalize hW : W6 m ρ c = Wv
  after_results_simp
  subst hW
  exact W6_arg7 m ρ c

/-! ## At the second call's exit -/

/-- The second call's result is the reference's second matrix product. -/
theorem W8_v52 : W8 m ρ c (Proc.devRef .tc main_v52) = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W8_arr m ρ c 2).trans ((Call1.value (V7 m ρ) c).trans (by
    show mm (W7 m ρ c (Proc.devRef .tc main_v50)) (W7 m ρ c (Proc.devRef .tc main_v51)) = _
    rw [W7_v50 m ρ c, W7_v51 m ρ c]
    exact (dotGeneral_eq_mm _ none _ _).symm))

/-- The second call does not write the source index vector. -/
theorem W8_v3 : W8 m ρ c (Proc.devRef .tc main_v3) = val_main_v3 (F := Ideal) (m ((c : Thread nD τ).loc main_arg1)) :=
  (W8_of_ne m ρ c main_v3 (by decide)).trans (W7_v3 m ρ c)

/-- The second call does not write the destination index vector. -/
theorem W8_v6 : W8 m ρ c (Proc.devRef .tc main_v6) = val_main_v6 (F := Ideal) (m ((c : Thread nD τ).loc main_arg1)) :=
  (W8_of_ne m ρ c main_v6 (by decide)).trans (W7_v6 m ρ c)

/-- The second call does not write the edge weight vector. -/
theorem W8_v31 : W8 m ρ c (Proc.devRef .tc main_v31) = val_main_v31 (F := Ideal) (m ((c : Thread nD τ).loc main_arg1)) :=
  (W8_of_ne m ρ c main_v31 (by decide)).trans (W7_v31 m ρ c)

/-- The second call does not write argument 5. -/
theorem W8_arg5 : W8 m ρ c (Proc.devRef .tc main_arg5) = (m ((c : Thread nD τ).loc main_arg5)) :=
  (W8_of_ne m ρ c main_arg5 (by decide)).trans (W7_arg5 m ρ c)

/-- The second call does not write argument 6. -/
theorem W8_arg6 : W8 m ρ c (Proc.devRef .tc main_arg6) = (m ((c : Thread nD τ).loc main_arg6)) :=
  (W8_of_ne m ρ c main_arg6 (by decide)).trans (W7_arg6 m ρ c)

/-- The second call does not write argument 7. -/
theorem W8_arg7 : W8 m ρ c (Proc.devRef .tc main_arg7) = (m ((c : Thread nD τ).loc main_arg7)) :=
  (W8_of_ne m ρ c main_arg7 (by decide)).trans (W7_arg7 m ρ c)

end Cert.KernelIdeal.Chain

end
-- ==== Proof.Call2.lean ====
/-
  The last call of the program: a row-tiled matrix product plus a bias. The grid has ten points; point `t` stages
  rows `10000·t … 10000·t + 9999` of the left operand, the whole one-column right operand and the one-entry bias,
  multiplies on the matrix unit into a zero accumulator (the roundings to the narrow float format on the way in are the
  identity on the extended reals), adds the bias entry to every row, and writes the column back to the same rows of the
  result. So block `t` of the result is block `t` of "the product of the two whole arrays, plus the bias entry", the ten
  blocks tile the result, and after the call the result array IS that function of the arrays the call found.
-/
import proofs.«101046_j33964601377430_1_alg».proof.Proof.Gen.KernelIdeal.Frame
import proofs.«101046_j33964601377430_1_alg».proof.Proof.MatSpec
import Idealize.ShloMosaic.Lib.Pipeline.Value
import Idealize.ShloMosaic.Lib.ValueIdx

set_option maxRecDepth 16384

noncomputable section

namespace Cert.KernelIdeal.Call2

open Cert.KernelIdeal Cert.KernelIdeal.Gen Cert.Spec
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The product of two arrays plus one bias entry added to every entry. -/
def lin {a k n : ℕ} (X : FVec Ideal ⟨2, ![a, k]⟩ .f32) (W : FVec Ideal ⟨2, ![k, n]⟩ .f32) (b : FVec Ideal ⟨2, ![1, 1]⟩ .f32) :
    FVec Ideal ⟨2, ![a, n]⟩ .f32 := fun i => mm X W i + b (ix2 (0 : Fin 1) (0 : Fin 1))

/-- The body's value at an entry of its block: the product's sum over the contracted position, plus the bias entry. -/
theorem pay_entry (x0 : Vec Ideal S10000x64 .f32) (x1 : Vec Ideal S64x1 .f32) (x2 : Vec Ideal S1x1 .f32) (p : Fin 10000) (q : Fin 1) :
    k2_pay1 (F := Ideal) x0 x1 x2 (ix2 p q) = (∑ c : Fin 64, x0 (ix2 p c) * x1 (ix2 c q)) + x2 (ix2 (0 : Fin 1) (0 : Fin 1)) := by
  unfold k2_pay1
  rw [shapeCast_self, shapeCast_self, shapeCast_self]
  show FloatOps.addf _ _ = _
  rw [Ideal.addf_def]
  refine congrArg₂ (· + ·) (MatSum.matmul_zero_entry _ none x0 x1 p q) ?_
  exact broadcastTo_apply (x2 : S1x1.Idx → Elt Ideal .f32) broadcasts_S1x1_S10000x1 (ix2 p q) (ix2 (0 : Fin 1) (0 : Fin 1)) (fun ax => match ax with
    | ⟨0, _⟩ => by show 0 = if (1 : ℕ) = 1 then 0 else p.val; rw [if_pos rfl]
    | ⟨1, _⟩ => by show 0 = if (1 : ℕ) = 1 then 0 else q.val; rw [if_pos rfl])

/-- The printed index maps over the grid: the left operand's and the result's blocks move together down the rows,
    point `t` at block `t`; the right operand's and the bias's blocks never move. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_3.index t (0 : Fin 2) = t.val ∧ win2_3.index t (1 : Fin 2) = 0 ∧ t.val < 10
    ∧ win2_2.index t (0 : Fin 2) = 0 ∧ win2_2.index t (1 : Fin 2) = 0 :=
  (by decide +kernel : ∀ t : Fin grid2.N, _)

/-- Every row block is some point's. -/
theorem idx_onto : ∀ q0 : Fin 10, ∃ t : Fin cfg2.N, t.val = q0.val :=
  (by decide +kernel : ∀ q0 : Fin 10, ∃ t : Fin grid2.N, t.val = q0.val)

/-- The left operand's block at point `t`, read at `(p, c)`: the array at row `10000·t + p`. -/
theorem read_x (c : Dev nD) (t : Fin cfg2.N) (p : Fin 10000) (k : Fin 64) (r : Fin 100000) (hr : r.val = t.val * 10000 + p.val) :
    iblk2 V c 0 t (ix2 p k) = V c main_v68 (ix2 r k) := by
  obtain ⟨e0, e1, -, -, -, -, -, -, -⟩ := idx_facts t
  show V c main_v68 (((cfg2.win 0).blk t).view.emb (ix2 p k)) = V c main_v68 (ix2 r k)
  refine congrArg _ ?_
  funext a; apply Fin.ext
  match a with
  | ⟨0, _⟩ => show win2_0.index t (0 : Fin 2) * 10000 + 1 * p.val = r.val; omega
  | ⟨1, _⟩ => show win2_0.index t (1 : Fin 2) * 64 + 1 * k.val = k.val; omega

/-- The right operand's block at any point is the whole array. -/
theorem read_w (c : Dev nD) (t : Fin cfg2.N) (k : Fin 64) (q : Fin 1) :
    iblk2 V c 1 t (ix2 k q) = V c main_v69 (ix2 k q) := by
  obtain ⟨-, -, e2, e3, -, -, -, -, -⟩ := idx_facts t
  show V c main_v69 (((cfg2.win 1).blk t).view.emb (ix2 k q)) = V c main_v69 (ix2 k q)
  refine congrArg _ ?_
  funext a; apply Fin.ext
  match a with
  | ⟨0, _⟩ => show win2_1.index t (0 : Fin 2) * 64 + 1 * k.val = k.val; omega
  | ⟨1, _⟩ => show win2_1.index t (1 : Fin 2) * 1 + 1 * q.val = q.val; omega

/-- The bias's block at any point is the whole one-entry array. -/
theorem read_b (c : Dev nD) (t : Fin cfg2.N) :
    iblk2 V c 2 t (ix2 (0 : Fin 1) (0 : Fin 1)) = V c main_v70 (ix2 (0 : Fin 1) (0 : Fin 1)) := by
  obtain ⟨-, -, -, -, -, -, -, e7, e8⟩ := idx_facts t
  show V c main_v70 (((cfg2.win 2).blk t).view.emb (ix2 (0 : Fin 1) (0 : Fin 1))) = V c main_v70 (ix2 (0 : Fin 1) (0 : Fin 1))
  refine congrArg _ ?_
  funext a; apply Fin.ext
  match a with
  | ⟨0, _⟩ => show win2_2.index t (0 : Fin 2) * 1 + 1 * 0 = 0; omega
  | ⟨1, _⟩ => show win2_2.index t (1 : Fin 2) * 1 + 1 * 0 = 0; omega

/-- What point `t` writes back: block `t` of the product plus the bias entry, of the arrays as the call finds them. -/
theorem flushed_eq (c : Dev nD) (t : Fin cfg2.N) :
    (dat2 V c).flushed 3 t = ((cfg2.win 3).blk t).view.read (Elt Ideal) (lin (V c main_v68) (V c main_v69) (V c main_v70)) := by
  show (cfg2.win 3).cut (grid2.coords t) ((dat2 V c).after 3 t) = _
  rw [after2_3]
  unfold out2_3
  rw [View.canon_unit_zero hz]
  simp only [View.ld_unit_zero (S := S10000x64) hz, View.ld_unit_zero (S := S64x1) hz, View.ld_unit_zero (S := S1x1) hz]
  obtain ⟨-, -, -, -, e4, e5, ht, -, -⟩ := idx_facts t
  funext j
  obtain ⟨p, q, rfl⟩ : ∃ (p : Fin 10000) (q : Fin 1), j = ix2 p q := ⟨j 0, j 1, eq_ix2 j⟩
  have hr : t.val * 10000 + p.val < 100000 := by have := p.isLt; omega
  have hemb : ((cfg2.win 3).blk t).view.emb (ix2 p q) = ix2 (⟨t.val * 10000 + p.val, hr⟩ : Fin 100000) q := by
    funext a; apply Fin.ext
    match a with
    | ⟨0, _⟩ => show win2_3.index t (0 : Fin 2) * 10000 + 1 * p.val = t.val * 10000 + p.val; omega
    | ⟨1, _⟩ => show win2_3.index t (1 : Fin 2) * 1 + 1 * q.val = q.val; omega
  show k2_pay1 (iblk2 V c 0 t) (iblk2 V c 1 t) (iblk2 V c 2 t) (ix2 p q)
    = lin (V c main_v68) (V c main_v69) (V c main_v70) (((cfg2.win 3).blk t).view.emb (ix2 p q))
  refine ((pay_entry _ _ _ p q).trans ?_).trans (congrArg (lin (V c main_v68) (V c main_v69) (V c main_v70)) hemb).symm
  show _ = mm (V c main_v68) (V c main_v69) (ix2 (⟨t.val * 10000 + p.val, hr⟩ : Fin 100000) q) + V c main_v70 (ix2 (0 : Fin 1) (0 : Fin 1))
  refine congrArg₂ (· + ·) ?_ (read_b V c t)
  refine (Finset.sum_congr rfl fun k _ => ?_).trans (mm_entry _ _ _ _).symm
  rw [read_x V c t p k ⟨_, hr⟩ rfl, read_w V c t k q]

/-- An index of the result is in point `t`'s block iff each coordinate is in the block's range on its axis. -/
theorem mem_blk (t : Fin cfg2.N) (i : S100000x1.Idx) :
    i ∈ ((cfg2.win 3).blk t).view.set ↔ ∀ a : Fin 2, win2_3.index t a * S10000x1.size a ≤ (i a).val ∧ (i a).val < win2_3.index t a * S10000x1.size a + S10000x1.size a := by
  show i ∈ ((View.whole main_v71).slice (win2_3.rect t)).set ↔ _
  rw [View.set_slice_whole, Rect.mem_set_unit]
  exact Iff.rfl

/-- The ten row blocks tile the result: row `r` is in the block of point `r / 10000`. -/
theorem cover (i : S100000x1.Idx) : ∃ t : Fin cfg2.N, (cfg2.win 3).flush t = true ∧ i ∈ ((cfg2.win 3).blk t).view.set := by
  have hi0 : (i 0).val < 100000 := (i 0).isLt
  have hi1 : (i 1).val < 1 := (i 1).isLt
  obtain ⟨t, ht⟩ := idx_onto ⟨(i 0).val / 10000, by omega⟩
  have ht' : t.val = (i 0).val / 10000 := ht
  obtain ⟨-, -, -, -, e4, e5, -, -, -⟩ := idx_facts t
  refine ⟨t, flush2_3 t, ?_⟩
  rw [mem_blk]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 1 ≤ (i 1).val ∧ (i 1).val < win2_3.index t (1 : Fin 2) * 1 + 1; omega

/-- After the call the result array is the product of the two arrays the call found, plus the bias entry it found. -/
theorem value (c : Dev nD) : (dat2 V c).arrAt 3 cfg2.N = lin (V c main_v68) (V c main_v69) (V c main_v70) :=
  (dat2 V c).arrAt_eq_of_cover 3 (lin (V c main_v68) (V c main_v69) (V c main_v70)) (fun t _ => flushed_eq V c t) cover

end Cert.KernelIdeal.Call2

end
-- ==== Proof.Stage2.lean ====
/-
  The program between its second and last calls, and through the last call, read at the ideal values. The host
  aggregates the second product over the edges exactly as it did the first (gather by source, scale by edge weight,
  scatter-add by destination) and adds the second bias, transposes the classifier's weight row into a column, and
  reshapes the one-entry classifier bias to a one-by-one matrix. The last call leaves, at row `r`, the sum over `k` of
  the aggregated row times the weight column, plus the bias entry. The reference multiplies the same two arrays on the
  host and adds the bias broadcast down the rows: entry by entry the same extended real, both sums being the same
  finite sum over `k` and the bias read at the only index it has.
-/
import proofs.«101046_j33964601377430_1_alg».proof.Proof.Gen.KernelIdeal.Frame
import proofs.«101046_j33964601377430_1_alg».proof.Proof.RefRead
import proofs.«101046_j33964601377430_1_alg».proof.Proof.MatSpec
import proofs.«101046_j33964601377430_1_alg».proof.Proof.Stage1
import proofs.«101046_j33964601377430_1_alg».proof.Proof.Call2
import Idealize.ShloMosaic.Lib.StableHlo.Run

set_option maxRecDepth 16384

noncomputable section

namespace Cert.KernelIdeal.Chain

open Cert.KernelIdeal Cert.KernelIdeal.Gen Cert.Spec Cert.ReferenceIdeal.ReadP
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-! ## At the last call's entry -/

set_option maxHeartbeats 4000000 in
/-- The matrix the last call multiplies is the reference's: the aggregated second product plus bias. -/
theorem W9_v68 : W9 m ρ c (Proc.devRef .tc main_v68) = val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2 (W8 m ρ c) (Proc.devRef .tc main_v68) = _
  generalize hW : W8 m ρ c = Wv
  after_results_simp
  subst hW
  rw [W8_v52 m ρ c, W8_v3 m ρ c, W8_v6 m ρ c, W8_v31 m ρ c, W8_arg5 m ρ c]
  all_goals rfl

set_option maxHeartbeats 4000000 in
/-- The classifier's weight column at the last call's entry. -/
theorem W9_v69 : W9 m ρ c (Proc.devRef .tc main_v69) = val_main_v69 (F := Ideal) (m ((c : Thread nD τ).loc main_arg6)) := by
  show StableHlo.after hostOps2 (W8 m ρ c) (Proc.devRef .tc main_v69) = _
  generalize hW : W8 m ρ c = Wv
  after_results_simp
  subst hW
  rw [W8_arg6 m ρ c]
  all_goals rfl

set_option maxHeartbeats 4000000 in
/-- The classifier's bias as a one-by-one matrix at the last call's entry. -/
theorem W9_v70 : W9 m ρ c (Proc.devRef .tc main_v70) = shapeCast S1x1 (m ((c : Thread nD τ).loc main_arg7)) shapeCasts_S1_S1x1 := by
  show StableHlo.after hostOps2 (W8 m ρ c) (Proc.devRef .tc main_v70) = _
  generalize hW : W8 m ρ c = Wv
  after_results_simp
  subst hW
  rw [W8_arg7 m ρ c]
  all_goals rfl

/-! ## The program's result -/

/-- A one-entry vector has one index. -/
theorem idx_S1_eq (u v : S1.Idx) : u = v := funext fun a => Fin.ext (by
  match a with
  | ⟨0, _⟩ =>
    have h1 : (u 0).val < 1 := (u 0).isLt
    have h2 : (v 0).val < 1 := (v 0).isLt
    show (u 0).val = (v 0).val
    omega)

/-- After the last call the result array is the reference's result of the same arguments. -/
theorem result : W10 m ρ c (Proc.devRef .tc main_v71) = val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W10_arr m ρ c 3).trans ((Call2.value (V9 m ρ) c).trans ?_)
  show Call2.lin (W9 m ρ c (Proc.devRef .tc main_v68)) (W9 m ρ c (Proc.devRef .tc main_v69)) (W9 m ρ c (Proc.devRef .tc main_v70)) = _
  rw [W9_v68 m ρ c, W9_v69 m ρ c, W9_v70 m ρ c]
  funext i
  rw [val_main_v73_apply, Ideal.addf_def]
  show mm _ _ i + _ = _
  refine congrArg₂ (· + ·) ?_ ?_
  · exact (congrFun (dotGeneral_eq_mm _ none _ _) i).symm
  · rw [val_main_v72_apply, val_main_v71_apply]
    unfold shapeCast
    exact congrArg (m ((c : Thread nD τ).loc main_arg7)) (idx_S1_eq _ _)

end Cert.KernelIdeal.Chain

end
-- ==== Proof.lean ====
/-
  Two graph-convolution layers and a linear classifier over 100000 nodes and 3.2 million edges (plus self-loops),
  against the plain reference. Both programs build the edge normalisation, gather, scale and scatter-add on the host
  with the same operations; they differ only in the three dense products: the reference multiplies whole matrices on
  the host, the other program tiles each product over ten row blocks on the matrix unit (narrowing its operands first,
  which is the identity on the extended reals) and adds the classifier's bias inside the last tile instead of after it.
  At the ideal values a tiled product into a zero accumulator and the host's product are the same finite sum at every
  entry, and the ten row blocks tile the result; so after each call the call's result buffer holds exactly what the
  reference's product holds, the shared host operations carry that equality forward unopened, and the two results
  agree entry by entry. No finiteness of the inputs is needed: only sums and products are compared, term by term.
  The idealisation rewrote nothing, so its conjunct is trivial.
-/
import proofs.«101046_j33964601377430_1_alg».proof.Defs
import proofs.«101046_j33964601377430_1_alg».proof.Proof.Gen.Kernel
import proofs.«101046_j33964601377430_1_alg».proof.Proof.Gen.Kernel.Skeleton
import proofs.«101046_j33964601377430_1_alg».proof.Proof.Gen.Kernel.Launch
import proofs.«101046_j33964601377430_1_alg».proof.Proof.Gen.Kernel.Points
import proofs.«101046_j33964601377430_1_alg».proof.Proof.Gen.Kernel.Frame
import proofs.«101046_j33964601377430_1_alg».proof.Proof.Gen.KernelIdeal
import proofs.«101046_j33964601377430_1_alg».proof.Proof.Gen.KernelIdeal.Skeleton
import proofs.«101046_j33964601377430_1_alg».proof.Proof.Gen.KernelIdeal.Launch
import proofs.«101046_j33964601377430_1_alg».proof.Proof.Gen.KernelIdeal.Points
import proofs.«101046_j33964601377430_1_alg».proof.Proof.Gen.KernelIdeal.Frame
import proofs.«101046_j33964601377430_1_alg».proof.Proof.Gen.ReferenceIdeal
import proofs.«101046_j33964601377430_1_alg».proof.Proof.Gen.Pre_finite_inputs
import proofs.«101046_j33964601377430_1_alg».proof.Proof.RefRun
import proofs.«101046_j33964601377430_1_alg».proof.Proof.RefRead
import proofs.«101046_j33964601377430_1_alg».proof.Proof.KRun
import proofs.«101046_j33964601377430_1_alg».proof.Proof.Stage2
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the result array at the reference's staged value of the (agreeing) arguments. -/
theorem algebraic : Cert.algebraic_KernelIdeal_ReferenceIdeal := by
  intro m ρ m' ρ' _ hagree
  refine ⟨fun c => Cert.ReferenceIdeal.ReadP.val_main_v73 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c => ⟨(h c).1.trans (Cert.KernelIdeal.Chain.result m ρ c), (h c).2⟩)
      (Cert.KernelIdeal.Out.run_main (F := Ideal) m ρ)
  · refine (θ_run Cert.ReferenceIdeal.defs _ _).mono (fun r h c => ⟨?_, (h c).2⟩)
      (Cert.ReferenceIdeal.ValueP.run (F := Ideal) m' ρ')
    rw [(h c).1, Cert.ReferenceIdeal.ReadP.val_main_v73_eq, (hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
